-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50000 : Shape := ⟨2, ![2048, 50000]⟩
abbrev S64x50000 : Shape := ⟨2, ![64, 50000]⟩
abbrev S64x64 : Shape := ⟨2, ![64, 64]⟩
abbrev S64 : Shape := ⟨1, ![64]⟩
abbrev S_ : Shape := ⟨0, ![]⟩

class Facts : Prop where
  bcast_S_S2048x50000 : S_.BroadcastsInDim S2048x50000 (![] : Fin 0 → Fin S2048x50000.rank)
  reducesTo_S2048x50000_S_d0_1 : S2048x50000.ReducesTo [0, 1] S_
  h_S_ : 0 < S_.numel
  bcast_S_S64x50000 : S_.BroadcastsInDim S64x50000 (![] : Fin 0 → Fin S64x50000.rank)
  reducesTo_S64x50000_S_d0_1 : S64x50000.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S2048x50000 .f32) (main_arg1 : FVec F S64x50000 .f32) (main_arg2 : FVec F S64x64 .f32) (main_arg3 : FVec F S64 .f32) : IVec S_ 1 :=
  let main_v0 : FVec F S2048x50000 .f32 := Host.absf main_arg0
  let main_cst : FVec F S_ .f32 := constant S_ .f32 0x7F800000#32
  let main_v1 : FVec F S2048x50000 .f32 := broadcastInDim S2048x50000 ![] bcast_S_S2048x50000 main_cst
  let main_v2 : IVec S2048x50000 1 := cmpf .olt main_v0 main_v1
  let main_c : IVec S_ 1 := constantI S_ 1 1#1
  let main_v3 : IVec S_ 1 := (fun x v => Host.reduce IntOp.andi x v reducesTo_S2048x50000_S_d0_1 h_S_) main_v2 main_c
  let main_v4 : FVec F S64x50000 .f32 := Host.absf main_arg1
  let main_cst_0 : FVec F S_ .f32 := constant S_ .f32 0x7F800000#32
  let main_v5 : FVec F S64x50000 .f32 := broadcastInDim S64x50000 ![] bcast_S_S64x50000 main_cst_0
  let main_v6 : IVec S64x50000 1 := cmpf .olt main_v4 main_v5
  let main_c_1 : IVec S_ 1 := constantI S_ 1 1#1
  let main_v7 : IVec S_ 1 := (fun x v => Host.reduce IntOp.andi x v reducesTo_S64x50000_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S2048x50000 : Shape := ⟨2, ![2048, 50000]⟩
abbrev S64x50000 : Shape := ⟨2, ![64, 50000]⟩
abbrev S64x64 : Shape := ⟨2, ![64, 64]⟩
abbrev S64 : Shape := ⟨1, ![64]⟩
abbrev S1x64 : Shape := ⟨2, ![1, 64]⟩
abbrev S2048x64 : Shape := ⟨2, ![2048, 64]⟩
abbrev S32x50000 : Shape := ⟨2, ![32, 50000]⟩
abbrev S32x64 : Shape := ⟨2, ![32, 64]⟩

abbrev nBuf : Space → Nat
  | .hbm => 6
  | .vmem => 7
  | .smem => 0
  | _ => 0

abbrev bufTy : (tb : Table) → Fin (tcTables nBuf tb) → BufTy
  | .hbm, ⟨0, _⟩ => ⟨S2048x50000, .f32⟩
  | .hbm, ⟨1, _⟩ => ⟨S64x50000, .f32⟩
  | .hbm, ⟨2, _⟩ => ⟨S64x64, .f32⟩
  | .hbm, ⟨3, _⟩ => ⟨S64, .f32⟩
  | .hbm, ⟨4, _⟩ => ⟨S1x64, .f32⟩
  | .hbm, ⟨5, _⟩ => ⟨S2048x64, .f32⟩
  | .local _ .vmem, ⟨0, _⟩ => ⟨S32x50000, .f32⟩
  | .local _ .vmem, ⟨1, _⟩ => ⟨S32x50000, .f32⟩
  | .local _ .vmem, ⟨2, _⟩ => ⟨S64x50000, .f32⟩
  | .local _ .vmem, ⟨3, _⟩ => ⟨S64x64, .f32⟩
  | .local _ .vmem, ⟨4, _⟩ => ⟨S1x64, .f32⟩
  | .local _ .vmem, ⟨5, _⟩ => ⟨S32x64, .f32⟩
  | .local _ .vmem, ⟨6, _⟩ => ⟨S32x64, .f32⟩
  | _, _ => ⟨S2048x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x50000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  inb_S32x50000_S32x50000_0_0 : ∀ a, (![0, 0] : Fin 2 → Nat) a + S32x50000.size a ≤ S32x50000.size a
  h_S32x50000 : 0 < S32x50000.numel
  bitsLt_bf16_f32 : FTy.bits .bf16 < FTy.bits .f32
  inb_S64x50000_S64x50000_0_0 : ∀ a, (![0, 0] : Fin 2 → Nat) a + S64x50000.size a ≤ S64x50000.size a
  h_S64x50000 : 0 < S64x50000.numel
  iota_S64x64_d0_w32 : S64x64.Iotas .tc 32 [0]
  iota_S64x64_d1_w32 : S64x64.Iotas .tc 32 [1]
  natLt_1_32 : 1 < 32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S32x64 : S1x64.Broadcasts S32x64
  inb_S32x64_S32x64_0_0 : ∀ a, (![0, 0] : Fin 2 → Nat) a + S32x64.size a ≤ S32x64.size a
  h_S32x64 : 0 < S32x64.numel
  dot_S32x50000_S64x50000_S32x64_1_1_0_0_n_n_wf : DotDims.WF S32x50000 S64x50000 S32x64 [1] [1] [0] [0] [] []
  dot_S32x64_S64x64_S32x64_1_1_0_0_n_n_wf : DotDims.WF S32x64 S64x64 S32x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50000.size a ≤ S2048x50000.size a
  hwx0_0 : ∀ i : grid0.Coords, EltTy.bits .f32 = 32 ∨ (Rect.block (s := S2048x50000) S32x50000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x50000.size a ≤ S64x50000.size a
  hwx0_1 : ∀ i : grid0.Coords, EltTy.bits .f32 = 32 ∨ (Rect.block (s := S64x50000) S64x50000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S2048x64.size a
  hwx0_4 : ∀ i : grid0.Coords, EltTy.bits .f32 = 32 ∨ (Rect.block (s := S2048x64) S32x64.size (cc0_transform_4 i) (hinb0_4 i)).WholeWords (EltTy.packing .f32)

variable [Facts₀]

def dot_S32x50000_S64x50000_S32x64_1_1_0_0_n_n : DotDims S32x50000 S64x50000 S32x64 where
  lhsContracting := [1]
  rhsContracting := [1]
  lhsNonContracting := [0]
  rhsNonContracting := [0]
  lhsBatch := []
  rhsBatch := []
  wf := dot_S32x50000_S64x50000_S32x64_1_1_0_0_n_n_wf
def dot_S32x64_S64x64_S32x64_1_1_0_0_n_n : DotDims S32x64 S64x64 S32x64 where
  lhsContracting := [1]
  rhsContracting := [1]
  lhsNonContracting := [0]
  rhsNonContracting := [0]
  lhsBatch := []
  rhsBatch := []
  wf := dot_S32x64_S64x64_S32x64_1_1_0_0_n_n_wf

abbrev win0_0 : Pipeline.Window sig grid0 :=
  Pipeline.Window.ofSpec (Memref.whole main_arg0) S32x50000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x50000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x50000 : Shape := ⟨2, ![2048, 50000]⟩
abbrev S64x50000 : Shape := ⟨2, ![64, 50000]⟩
abbrev S64x64 : Shape := ⟨2, ![64, 64]⟩
abbrev S64 : Shape := ⟨1, ![64]⟩
abbrev S2048x64 : Shape := ⟨2, ![2048, 64]⟩
abbrev S_ : Shape := ⟨0, ![]⟩
abbrev S1x64 : Shape := ⟨2, ![1, 64]⟩

abbrev nBuf : Space → Nat
  | .hbm => 24
  | .vmem => 0
  | .smem => 0
  | _ => 0

abbrev bufTy : (tb : Table) → Fin (tcTables nBuf tb) → BufTy
  | .hbm, ⟨0, _⟩ => ⟨S2048x50000, .f32⟩
  | .hbm, ⟨1, _⟩ => ⟨S64x50000, .f32⟩
  | .hbm, ⟨2, _⟩ => ⟨S64x64, .f32⟩
  | .hbm, ⟨3, _⟩ => ⟨S64, .f32⟩
  | .hbm, ⟨4, _⟩ => ⟨S2048x64, .f32⟩
  | .hbm, ⟨5, _⟩ => ⟨S64x64, .i32⟩
  | .hbm, ⟨6, _⟩ => ⟨S64x64, .i32⟩
  | .hbm, ⟨7, _⟩ => ⟨S_, .i32⟩
  | .hbm, ⟨8, _⟩ => ⟨S64x64, .i32⟩
  | .hbm, ⟨9, _⟩ => ⟨S64x64, .i32⟩
  | .hbm, ⟨10, _⟩ => ⟨S64x64, .i1⟩
  | .hbm, ⟨11, _⟩ => ⟨S64x64, .f32⟩
  | .hbm, ⟨12, _⟩ => ⟨S_, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S1x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S_, .f32⟩
  | .hbm, ⟨21, _⟩ => ⟨S2048x64, .f32⟩
  | .hbm, ⟨22, _⟩ => ⟨S2048x64, .f32⟩
  | .hbm, ⟨23, _⟩ => ⟨S2048x64, .f32⟩
  | _, _ => ⟨S2048x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  dot_S2048x50000_S64x50000_S2048x64_1_1_0_0_n_n_wf : DotDims.WF S2048x50000 S64x50000 S2048x64 [1] [1] [0] [0] [] []
  dot_S2048x64_S64x64_S2048x64_1_1_0_0_n_n_wf : DotDims.WF S2048x64 S64x64 S2048x64 [1] [1] [0] [0] [] []

variable [Facts₀]

def dot_S2048x50000_S64x50000_S2048x64_1_1_0_0_n_n : DotDims S2048x50000 S64x50000 S2048x64 where
  lhsContracting := [1]
  rhsContracting := [1]
  lhsNonContracting := [0]
  rhsNonContracting := [0]
  lhsBatch := []
  rhsBatch := []
  wf := dot_S2048x50000_S64x50000_S2048x64_1_1_0_0_n_n_wf
def dot_S2048x64_S64x64_S2048x64_1_1_0_0_n_n : DotDims S2048x64 S64x64 S2048x64 where
  lhsContracting := [1]
  rhsContracting := [1]
  lhsNonContracting := [0]
  rhsNonContracting := [0]
  lhsBatch := []
  rhsBatch := []
  wf := dot_S2048x64_S64x64_S2048x64_1_1_0_0_n_n_wf

class Facts : Prop extends Facts₀ where

variable [Facts]
-- ==== Proof.Spec.lean ====
/-
  The function both programs compute, index by index, over the extended reals.

  Given 2048 documents as rows of word counts x over a vocabulary of 50000 words, 64 topics as rows of word weights beta,
  a 64 × 64 topic-interaction matrix theta and a per-topic bias mu:

      s[b, k]   = Σ_v x[b, v] · beta[k, v]                                     (document b's score for topic k)
      out[b, k] = (s[b, k] + mu[k]) + c · Σ_j s[b, j] · (theta[k, j] · (1 − [k = j]))

  — the score, plus the bias, plus a fixed multiple c of the document's scores mixed through theta with its diagonal
  masked off. The constant c is one f32 word, the same word in both programs, so it is carried as that word and never
  evaluated. The indicator [k = j] is carried the way both programs compute it: the one-bit answer of comparing the 32-bit
  row number (plus zero) with the 32-bit column number, converted to a number.

  Nothing here needs the inputs to be finite: the two programs apply the same sums, products and differences in the same
  order, so they agree on every extended real, the infinities included.
-/
import Idealize.ShloMosaic.PureOps.Ideal
import Idealize.ShloMosaic.Lib.ValueIdx

noncomputable section

namespace Cert.TopicScore

open Idealize.ShloMosaic Idealize.ShloMosaic.ValueIdx

/-- Document b's score for topic k: the inner product of the document's counts with the topic's weights, over the
    whole vocabulary. Stated for any number of documents, since a block of 32 documents is scored the same way as all
    2048. -/
def score {n : Nat} (x : FVec Ideal ⟨2, ![n, 50000]⟩ .f32) (beta : FVec Ideal ⟨2, ![64, 50000]⟩ .f32)
    (b : Fin n) (k : Fin 64) : EReal :=
  ∑ v : Fin 50000, x (ix2 b v) * beta (ix2 k v)

/-- The one-bit answer to "is this the diagonal?": the row number plus zero compared with the column number, both as
    32-bit words. -/
def diagBit (k j : Fin 64) : BitVec 1 :=
  IntOp.cmpi .eq (IntOp.addi (BitVec.ofNat 32 k.val) 0#32) (BitVec.ofNat 32 j.val)

/-- The mask that removes theta's diagonal: the word for 1.0 minus the diagonal bit read as a number. -/
def offDiag (k j : Fin 64) : EReal :=
  Ideal.ofBits .f32 0x3F800000#32 - (((diagBit k j).toNat : ℝ) : EReal)

/-- The result at document b and topic k, from the scores of document b. -/
def mixAt (s : Fin 64 → EReal) (theta : FVec Ideal ⟨2, ![64, 64]⟩ .f32) (bias : EReal) (k : Fin 64) : EReal :=
  (s k + bias) + Ideal.ofBits .f32 0x3DCCCCCD#32 * ∑ j : Fin 64, s j * (theta (ix2 k j) * offDiag k j)

/-- The whole result array as one function of the four argument arrays. -/
def logProb (x : FVec Ideal ⟨2, ![2048, 50000]⟩ .f32) (beta : FVec Ideal ⟨2, ![64, 50000]⟩ .f32)
    (theta : FVec Ideal ⟨2, ![64, 64]⟩ .f32) (mu : FVec Ideal ⟨1, ![64]⟩ .f32) : FVec Ideal ⟨2, ![2048, 64]⟩ .f32 :=
  fun i => mixAt (fun j => score x beta (i 0) j) theta (mu (ix1 (i 1))) (i 1)

/-- A single bit widened to 32 bits and read as a signed integer is the bit read as a natural number: widening with
    zeros keeps the value, and a 32-bit word below 2 is not negative. One program converts the diagonal bit the first
    way, the other the second way. -/
theorem signed_of_widened_bit (b : BitVec 1) : (((b.setWidth 32).toInt : ℝ) : EReal) = ((b.toNat : ℝ) : EReal) := by
  have h : (b.setWidth 32).toInt = (b.toNat : ℤ) := by revert b; decide
  rw [h, Int.cast_natCast]

end Cert.TopicScore

end
-- ==== Proof.RefValue.lean ====
/-
  The reference program's result is the specification.

  Read one host operation at a time at an index (b, k): the first product is the score s[b, k]; the second product
  contracts the scores of document b against theta with its diagonal masked off; the bias reaches position (b, k) through
  two broadcasts that keep the topic coordinate; the constant is splat. Each step only identifies an index the host
  operation names with the index the specification names.
-/
import proofs.«155288_j790273982469_1_alg».proof.Proof.Gen.ReferenceIdeal.Read
import proofs.«155288_j790273982469_1_alg».proof.Proof.Spec

noncomputable section

namespace Cert.TopicScore.Ref

open Idealize.ShloMosaic Idealize.ShloMosaic.ValueIdx Cert.ReferenceIdeal Cert.ReferenceIdeal.Read

/-- The first host product at (b, k) is document b's score for topic k: both operands are contracted along the
    vocabulary axis. -/
theorem scores_eq (x0 : FVec Ideal S2048x50000 .f32) (x1 : FVec Ideal S64x50000 .f32) (b : Fin 2048) (k : Fin 64) :
    val_main_v0 (F := Ideal) x0 x1 (ix2 b k) = score x0 x1 b k := by
  rw [val_main_v0_apply]
  unfold score
  refine Finset.sum_congr rfl fun v _ => ?_
  have el : lidx_main_v0 (ix2 b k) v = ix2 b v :=
    funext fun a => Fin.ext (by match a with | ⟨0, _⟩ => rfl | ⟨1, _⟩ => rfl)
  have er : ridx_main_v0 (ix2 b k) v = ix2 k v :=
    funext fun a => Fin.ext (by match a with | ⟨0, _⟩ => rfl | ⟨1, _⟩ => rfl)
  rw [el, er]

/-- The host's mask at (k, j): one minus the diagonal bit read as an unsigned number. -/
theorem mask_eq (k j : Fin 64) : val_main_v8 (F := Ideal) (ix2 k j) = offDiag k j := by
  rw [val_main_v8_apply, val_main_v7_apply, val_main_cst_apply, val_main_v6_apply, val_main_v5_apply, val_main_v4_apply,
    val_main_v1_apply, val_main_v3_apply, val_main_c_apply, val_main_v2_apply]
  rfl

/-- The reference's result array is the specification of the four argument arrays. -/
theorem result_eq (x0 : FVec Ideal S2048x50000 .f32) (x1 : FVec Ideal S64x50000 .f32) (x2 : FVec Ideal S64x64 .f32)
    (x3 : FVec Ideal S64 .f32) :
    val_main_v16 (F := Ideal) x0 x1 x2 x3 = logProb x0 x1 x2 x3 := by
  funext i
  obtain ⟨b, k, rfl⟩ : ∃ (b : Fin 2048) (k : Fin 64), i = ix2 b k := ⟨i 0, i 1, eq_ix2 i⟩
  have hmu : x3 (idx_main_v10 (idx_main_v11 (ix2 b k))) = x3 (ix1 k) :=
    congrArg x3 (funext fun a => Fin.ext (by match a with | ⟨0, _⟩ => rfl))
  have hsum : (∑ j : Fin 64, (val_main_v0 (F := Ideal) x0 x1) (lidx_main_v13 (ix2 b k) j) * (val_main_v9 (F := Ideal) x2) (ridx_main_v13 (ix2 b k) j))
      = ∑ j : Fin 64, score x0 x1 b j * (x2 (ix2 k j) * offDiag k j) := by
    refine Finset.sum_congr rfl fun j _ => ?_
    have el : lidx_main_v13 (ix2 b k) j = ix2 b j :=
      funext fun a => Fin.ext (by match a with | ⟨0, _⟩ => rfl | ⟨1, _⟩ => rfl)
    have er : ridx_main_v13 (ix2 b k) j = ix2 k j :=
      funext fun a => Fin.ext (by match a with | ⟨0, _⟩ => rfl | ⟨1, _⟩ => rfl)
    rw [el, er, scores_eq, val_main_v9_apply, mask_eq]
    rfl
  rw [val_main_v16_apply, val_main_v12_apply, val_main_v15_apply, val_main_v13_apply, hsum, scores_eq, val_main_v11_apply,
    val_main_v10_apply, hmu, val_main_v14_apply, val_main_cst_0_apply]
  rfl

end Cert.TopicScore.Ref

end
-- ==== Proof.BlockValue.lean ====
/-
  What the kernel body computes for one block of 32 documents, read at one position (p, q) of the block.

  The body scores the block's 32 documents against all 64 topics with one matrix product contracted along the vocabulary
  (the narrowing of both operands to a 16-bit format beforehand changes nothing over the extended reals), builds the
  off-diagonal mask from two index counters, multiplies theta by it, mixes the block's scores through the masked theta with
  a second matrix product contracted along the topic axis, and adds scores, bias row and the scaled mix. Read at (p, q) this
  is the specification's mixing formula applied to the scores of document p of the block.

  Each matrix product accumulates into zero, so at an index it is the plain sum of products over the contracted axis; the
  two index computations below say which entries of the operands a product at (p, q) multiplies.
-/
import proofs.«155288_j790273982469_1_alg».proof.Proof.Gen.KernelIdeal.Skeleton
import proofs.«155288_j790273982469_1_alg».proof.Proof.Spec
import Idealize.ShloMosaic.Lib.Pipeline.Value
import Idealize.ShloMosaic.Lib.ValueIdx
import Idealize.ShloMosaic.PureOps.Ideal.Laws

noncomputable section

namespace Cert.TopicScore.Block

open Idealize.ShloMosaic Idealize.ShloMosaic.ValueIdx Cert.KernelIdeal

/-! ## The scoring product: rows of the block against rows of beta, along the vocabulary -/

theorem score_lhs_row (i : S32x64.Idx) (r : dot_S32x50000_S64x50000_S32x64_1_1_0_0_n_n.contr.Idx) :
    (dot_S32x50000_S64x50000_S32x64_1_1_0_0_n_n.lhsIdx i r 0).val = (i 0).val := by
  unfold DotDims.lhsIdx
  rw [dif_neg (show ¬(0 : Fin S32x50000.rank) ∈ dot_S32x50000_S64x50000_S32x64_1_1_0_0_n_n.lhsBatch by decide),
    dif_pos (show (0 : Fin S32x50000.rank) ∈ dot_S32x50000_S64x50000_S32x64_1_1_0_0_n_n.lhsNonContracting by decide)]
  rfl
theorem score_lhs_word (i : S32x64.Idx) (r : dot_S32x50000_S64x50000_S32x64_1_1_0_0_n_n.contr.Idx) :
    (dot_S32x50000_S64x50000_S32x64_1_1_0_0_n_n.lhsIdx i r 1).val = (r ⟨0, by decide⟩).val :=
  dot_S32x50000_S64x50000_S32x64_1_1_0_0_n_n.lhsIdx_val_of_single rfl i r
theorem score_rhs_row (i : S32x64.Idx) (r : dot_S32x50000_S64x50000_S32x64_1_1_0_0_n_n.contr.Idx) :
    (dot_S32x50000_S64x50000_S32x64_1_1_0_0_n_n.rhsIdx i r 0).val = (i 1).val := by
  unfold DotDims.rhsIdx
  rw [dif_neg (show ¬(0 : Fin S64x50000.rank) ∈ dot_S32x50000_S64x50000_S32x64_1_1_0_0_n_n.rhsBatch by decide),
    dif_pos (show (0 : Fin S64x50000.rank) ∈ dot_S32x50000_S64x50000_S32x64_1_1_0_0_n_n.rhsNonContracting by decide)]
  rfl
theorem score_rhs_word (i : S32x64.Idx) (r : dot_S32x50000_S64x50000_S32x64_1_1_0_0_n_n.contr.Idx) :
    (dot_S32x50000_S64x50000_S32x64_1_1_0_0_n_n.rhsIdx i r 1).val = (r ⟨0, by decide⟩).val :=
  dot_S32x50000_S64x50000_S32x64_1_1_0_0_n_n.rhsIdx_val_of_single rfl i r

/-- The block's scoring product at (p, j) is document p's score for topic j. -/
theorem scores_blk (x0 : FVec Ideal S32x50000 .f32) (x1 : FVec Ideal S64x50000 .f32)
    (h0 : FTy.bits .bf16 < FTy.bits .f32) (h1 : FTy.bits .bf16 < FTy.bits .f32) (p : Fin 32) (j : Fin 64) :
    matmul dot_S32x50000_S64x50000_S32x64_1_1_0_0_n_n none (truncf .bf16 x0 h0) (truncf .bf16 x1 h1) (constant S32x64 .f32 0x00000000#32) (ix2 p j)
      = score x0 x1 p j := by
  simp only [matmul]
  rw [Ideal.matmul_constant_zero_apply, ← Equiv.sum_comp (contrEquiv1 dot_S32x50000_S64x50000_S32x64_1_1_0_0_n_n 50000 rfl rfl).symm]
  unfold score
  refine Finset.sum_congr rfl fun v _ => ?_
  have hv := contrEquiv1_symm_val dot_S32x50000_S64x50000_S32x64_1_1_0_0_n_n 50000 rfl rfl v
  have el : dot_S32x50000_S64x50000_S32x64_1_1_0_0_n_n.lhsIdx (ix2 p j) ((contrEquiv1 dot_S32x50000_S64x50000_S32x64_1_1_0_0_n_n 50000 rfl rfl).symm v) = ix2 p v :=
    funext fun a => Fin.ext (by
      match a with
      | ⟨0, _⟩ => exact score_lhs_row _ _
      | ⟨1, _⟩ => exact (score_lhs_word _ _).trans hv)
  have er : dot_S32x50000_S64x50000_S32x64_1_1_0_0_n_n.rhsIdx (ix2 p j) ((contrEquiv1 dot_S32x50000_S64x50000_S32x64_1_1_0_0_n_n 50000 rfl rfl).symm v) = ix2 j v :=
    funext fun a => Fin.ext (by
      match a with
      | ⟨0, _⟩ => exact score_rhs_row _ _
      | ⟨1, _⟩ => exact (score_rhs_word _ _).trans hv)
  rw [el, er]
  rfl

/-! ## The mixing product: rows of scores against rows of the masked theta, along the topic axis -/

theorem mix_lhs_row (i : S32x64.Idx) (r : dot_S32x64_S64x64_S32x64_1_1_0_0_n_n.contr.Idx) :
    (dot_S32x64_S64x64_S32x64_1_1_0_0_n_n.lhsIdx i r 0).val = (i 0).val := by
  unfold DotDims.lhsIdx
  rw [dif_neg (show ¬(0 : Fin S32x64.rank) ∈ dot_S32x64_S64x64_S32x64_1_1_0_0_n_n.lhsBatch by decide),
    dif_pos (show (0 : Fin S32x64.rank) ∈ dot_S32x64_S64x64_S32x64_1_1_0_0_n_n.lhsNonContracting by decide)]
  rfl
theorem mix_lhs_topic (i : S32x64.Idx) (r : dot_S32x64_S64x64_S32x64_1_1_0_0_n_n.contr.Idx) :
    (dot_S32x64_S64x64_S32x64_1_1_0_0_n_n.lhsIdx i r 1).val = (r ⟨0, by decide⟩).val :=
  dot_S32x64_S64x64_S32x64_1_1_0_0_n_n.lhsIdx_val_of_single rfl i r
theorem mix_rhs_row (i : S32x64.Idx) (r : dot_S32x64_S64x64_S32x64_1_1_0_0_n_n.contr.Idx) :
    (dot_S32x64_S64x64_S32x64_1_1_0_0_n_n.rhsIdx i r 0).val = (i 1).val := by
  unfold DotDims.rhsIdx
  rw [dif_neg (show ¬(0 : Fin S64x64.rank) ∈ dot_S32x64_S64x64_S32x64_1_1_0_0_n_n.rhsBatch by decide),
    dif_pos (show (0 : Fin S64x64.rank) ∈ dot_S32x64_S64x64_S32x64_1_1_0_0_n_n.rhsNonContracting by decide)]
  rfl
theorem mix_rhs_topic (i : S32x64.Idx) (r : dot_S32x64_S64x64_S32x64_1_1_0_0_n_n.contr.Idx) :
    (dot_S32x64_S64x64_S32x64_1_1_0_0_n_n.rhsIdx i r 1).val = (r ⟨0, by decide⟩).val :=
  dot_S32x64_S64x64_S32x64_1_1_0_0_n_n.rhsIdx_val_of_single rfl i r

/-- The mixing product at (p, q): row p of the left operand against row q of the right one. -/
theorem mix_blk (s : FVec Ideal S32x64 .f32) (w : FVec Ideal S64x64 .f32) (p : Fin 32) (q : Fin 64) :
    matmul dot_S32x64_S64x64_S32x64_1_1_0_0_n_n none s w (constant S32x64 .f32 0x00000000#32) (ix2 p q)
      = ∑ j : Fin 64, s (ix2 p j) * w (ix2 q j) := by
  simp only [matmul]
  rw [Ideal.matmul_constant_zero_apply, ← Equiv.sum_comp (contrEquiv1 dot_S32x64_S64x64_S32x64_1_1_0_0_n_n 64 rfl rfl).symm]
  refine Finset.sum_congr rfl fun j _ => ?_
  have hj := contrEquiv1_symm_val dot_S32x64_S64x64_S32x64_1_1_0_0_n_n 64 rfl rfl j
  have el : dot_S32x64_S64x64_S32x64_1_1_0_0_n_n.lhsIdx (ix2 p q) ((contrEquiv1 dot_S32x64_S64x64_S32x64_1_1_0_0_n_n 64 rfl rfl).symm j) = ix2 p j :=
    funext fun a => Fin.ext (by
      match a with
      | ⟨0, _⟩ => exact mix_lhs_row _ _
      | ⟨1, _⟩ => exact (mix_lhs_topic _ _).trans hj)
  have er : dot_S32x64_S64x64_S32x64_1_1_0_0_n_n.rhsIdx (ix2 p q) ((contrEquiv1 dot_S32x64_S64x64_S32x64_1_1_0_0_n_n 64 rfl rfl).symm j) = ix2 q j :=
    funext fun a => Fin.ext (by
      match a with
      | ⟨0, _⟩ => exact mix_rhs_row _ _
      | ⟨1, _⟩ => exact (mix_rhs_topic _ _).trans hj)
  rw [el, er]

/-! ## The bias row and the mask -/

/-- The one-row bias block, copied down the 32 rows, holds at (p, q) its entry for topic q. -/
theorem bias_blk (x3 : FVec Ideal S1x64 .f32) (h1 : S1x64.ShapeCasts S1x64) (h2 : S1x64.Broadcasts S32x64)
    (p : Fin 32) (q : Fin 64) :
    broadcastTo S32x64 (shapeCast S1x64 x3 h1) h2 (ix2 p q) = x3 (ix2 (0 : Fin 1) q) := by
  rw [shapeCast_self]
  exact broadcastTo_apply x3 h2 (ix2 p q) (ix2 (0 : Fin 1) q) (fun a => by
    match a with
    | ⟨0, _⟩ => show 0 = if (1 : Nat) = 1 then 0 else p.val; rw [if_pos rfl]
    | ⟨1, _⟩ => show q.val = if (64 : Nat) = 1 then 0 else q.val; rw [if_neg (by decide)])

/-- The body's mask at (k, j): the word for 1.0 minus the diagonal bit, which the body widens to 32 bits and converts as
    a signed integer. -/
theorem mask_blk (h0 : S64x64.Iotas .tc 32 [0]) (h1 : S64x64.Iotas .tc 32 [1]) (h2 : 1 < 32) (k j : Fin 64) :
    (subf (broadcast S64x64 (Ideal.ofBits .f32 0x3F800000#32 : Ideal .f32))
      (sitofp .f32 (extui 32 (cmpi .eq (addi (iota .tc S64x64 32 [0] h0) (broadcast S64x64 0#32)) (iota .tc S64x64 32 [1] h1)) h2)))
        (ix2 k j)
      = offDiag k j := by
  rw [subf_apply, broadcast_apply, sitofp_apply, extui_apply]
  show Ideal.ofBits .f32 0x3F800000#32
      - ((((IntOp.cmpi .eq (IntOp.addi (iota .tc S64x64 32 [0] h0 (ix2 k j)) 0#32) (iota .tc S64x64 32 [1] h1 (ix2 k j))).setWidth 32).toInt : ℝ) : EReal) = _
  rw [iota_single_apply, iota_single_apply, signed_of_widened_bit]
  rfl

/-! ## The whole payload at a position of the block -/

/-- The body's stored value at (p, q) is the mixing formula applied to the scores of document p of the block, with the
    bias row's entry for topic q. -/
theorem payload_apply (x0 : FVec Ideal S32x50000 .f32) (x1 : FVec Ideal S64x50000 .f32) (x2 : FVec Ideal S64x64 .f32)
    (x3 : FVec Ideal S1x64 .f32) (p : Fin 32) (q : Fin 64) :
    Gen.k0_pay1 (F := Ideal) x0 x1 x2 x3 (ix2 p q)
      = mixAt (fun j => score x0 x1 p j) x2 (x3 (ix2 (0 : Fin 1) q)) q := by
  unfold Gen.k0_pay1
  dsimp only
  simp only [addf_apply, mulf_apply, broadcast_apply, Ideal.ofBits_def, scores_blk, bias_blk, mix_blk]
  unfold mixAt
  refine congrArg (fun z => score x0 x1 p q + x3 (ix2 (0 : Fin 1) q) + Ideal.ofBits .f32 0x3DCCCCCD#32 * z)
    (Finset.sum_congr rfl fun j _ => ?_)
  exact congrArg (fun z => score x0 x1 p j * (x2 (ix2 q j) * z)) (mask_blk _ _ _ q j)

end Cert.TopicScore.Block

end
-- ==== Proof.ArrayValue.lean ====
/-
  From the blocks to the whole result array.

  The 2048 documents are cut into 64 blocks of 32 consecutive rows; grid point t works on rows 32·t … 32·t + 31. At every
  point the body sees all of beta, all of theta and the one-row bias (the bias array is the 64 biases viewed as one row of
  64, a view the host makes before the launch), and writes rows 32·t … 32·t + 31 of the result. So:

    • what point t writes back is block t of the specification's result array, because row p of block t is document
      32·t + p of the whole array and the other three operands are the whole arrays;
    • every row r of the result lies in exactly the block of point r / 32, so the blocks cover the array;
    • hence after the run the result array is the specification's, everywhere.
-/
import proofs.«155288_j790273982469_1_alg».proof.Proof.Gen.KernelIdeal.Value
import proofs.«155288_j790273982469_1_alg».proof.Proof.BlockValue
import Idealize.ShloMosaic.Lib.Pipeline.Value
import Idealize.ShloMosaic.Lib.StableHlo.Run

noncomputable section

namespace Cert.TopicScore.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification's result array, of the four argument arrays as launched on core c. -/
abbrev result (c : Dev nD) : FVec Ideal S2048x64 .f32 :=
  logProb (m ((c : Thread nD τ).loc main_arg0)) (m ((c : Thread nD τ).loc main_arg1))
    (m ((c : Thread nD τ).loc main_arg2)) (m ((c : Thread nD τ).loc main_arg3))

theorem zero_offsets : (![0, 0] : Fin 2 → Nat) = fun _ => 0 := funext fun a => by fin_cases a <;> rfl

/-! ## One position of one block, against the whole arrays -/

/-- If row p of a block of documents is row b of the whole array, the block's topic weights and interactions are the
    whole arrays, and the bias row's entry for topic q is the bias of topic q, then the body's value at (p, q) is the
    specification's at (b, q): the specification at (b, q) only looks at document b. -/
theorem block_is_rows (x : FVec Ideal S2048x50000 .f32) (beta : FVec Ideal S64x50000 .f32) (theta : FVec Ideal S64x64 .f32)
    (mu : FVec Ideal S64 .f32)
    (x0 : FVec Ideal S32x50000 .f32) (x1 : FVec Ideal S64x50000 .f32) (x2 : FVec Ideal S64x64 .f32) (x3 : FVec Ideal S1x64 .f32)
    (b : Fin 2048) (p : Fin 32) (q : Fin 64)
    (h0 : ∀ v : Fin 50000, x0 (ix2 p v) = x (ix2 b v)) (h1 : x1 = beta) (h2 : x2 = theta)
    (h3 : x3 (ix2 (0 : Fin 1) q) = mu (ix1 q)) :
    k0_pay1 (F := Ideal) x0 x1 x2 x3 (ix2 p q) = logProb x beta theta mu (ix2 b q) := by
  rw [Block.payload_apply, h3]
  subst h1 h2
  have hs : (fun j => score x0 x1 p j) = fun j => score x x1 b j := funext fun j => by
    unfold score
    exact Finset.sum_congr rfl fun v _ => by rw [h0]
  rw [hs]
  rfl

/-! ## The arrays as the region finds them -/

/-- The printed index maps over the 64 grid points: the documents' window and the result's window move with the point,
    one block of rows per point; the other three windows stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The bias window's array is the 64 biases viewed as one row: the one host operation before the launch. -/
theorem bias_row (c : Dev nD) :
    (V m c main_v0 : S1x64.Idx → EReal) = shapeCast S1x64 (m ((c : Thread nD τ).loc main_arg3)) shapeCasts_S64_S1x64 := by
  dsimp only [V, hostOps0]
  after_results
  rfl

/-! ## What a point writes back -/

/-- Point t writes back block t of the specification's result array. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero_offsets]
  simp only [View.ld_unit_zero (S := S32x50000) zero_offsets, View.ld_unit_zero (S := S64x50000) zero_offsets,
    View.ld_unit_zero (S := S64x64) zero_offsets, View.ld_unit_zero (S := S1x64) zero_offsets]
  obtain ⟨e00, e01, e10, e11, e20, e21, e30, e31, e40, e41⟩ := idx_facts t
  have hN : cfg0.N = 64 := N_0
  have ht : t.val < 64 := hN ▸ t.isLt
  refine funext fun (y : S32x64.Idx) => ?_
  obtain ⟨p, q, rfl⟩ : ∃ (p : Fin 32) (q : Fin 64), y = ix2 p q := ⟨y 0, y 1, eq_ix2 y⟩
  have hp : p.val < 32 := p.isLt
  have hb : t.val * 32 + p.val < 2048 := by omega
  show k0_pay1 (F := Ideal) (iblk m c 0 t) (iblk m c 1 t) (iblk m c 2 t) (iblk m c 3 t) (ix2 p q)
      = result m c (((cfg0.win 4).blk t).view.emb (ix2 p q))
  have hi : ((cfg0.win 4).blk t).view.emb (ix2 p q) = ix2 (⟨t.val * 32 + p.val, hb⟩ : Fin 2048) q :=
    funext fun a => Fin.ext (by
      match a with
      | ⟨0, _⟩ => show win0_4.index t (0 : Fin 2) * 32 + 1 * p.val = t.val * 32 + p.val; rw [e40]; omega
      | ⟨1, _⟩ => show win0_4.index t (1 : Fin 2) * 64 + 1 * q.val = q.val; rw [e41]; omega)
  rw [hi]
  have h0 : ∀ v : Fin 50000, iblk m c 0 t (ix2 p v)
      = m ((c : Thread nD τ).loc main_arg0) (ix2 (⟨t.val * 32 + p.val, hb⟩ : Fin 2048) v) := by
    intro v
    show V m c main_arg0 (((cfg0.win 0).blk t).view.emb (ix2 p v)) = _
    rw [V_main_arg0]
    refine congrArg (m ((c : Thread nD τ).loc main_arg0)) (funext fun a => Fin.ext ?_)
    match a with
    | ⟨0, _⟩ => show win0_0.index t (0 : Fin 2) * 32 + 1 * p.val = t.val * 32 + p.val; rw [e00]; omega
    | ⟨1, _⟩ => show win0_0.index t (1 : Fin 2) * 50000 + 1 * v.val = v.val; rw [e01]; omega
  have h1 : (iblk m c 1 t : FVec Ideal S64x50000 .f32) = m ((c : Thread nD τ).loc main_arg1) := by
    refine funext fun (z : S64x50000.Idx) => ?_
    show V m c main_arg1 (((cfg0.win 1).blk t).view.emb z) = _
    rw [V_main_arg1]
    refine congrArg (m ((c : Thread nD τ).loc main_arg1)) (funext fun a => Fin.ext ?_)
    match a with
    | ⟨0, _⟩ => show win0_1.index t (0 : Fin 2) * 64 + 1 * (z 0).val = (z 0).val; rw [e10]; omega
    | ⟨1, _⟩ => show win0_1.index t (1 : Fin 2) * 50000 + 1 * (z 1).val = (z 1).val; rw [e11]; omega
  have h2 : (iblk m c 2 t : FVec Ideal S64x64 .f32) = m ((c : Thread nD τ).loc main_arg2) := by
    refine funext fun (z : S64x64.Idx) => ?_
    show V m c main_arg2 (((cfg0.win 2).blk t).view.emb z) = _
    rw [V_main_arg2]
    refine congrArg (m ((c : Thread nD τ).loc main_arg2)) (funext fun a => Fin.ext ?_)
    match a with
    | ⟨0, _⟩ => show win0_2.index t (0 : Fin 2) * 64 + 1 * (z 0).val = (z 0).val; rw [e20]; omega
    | ⟨1, _⟩ => show win0_2.index t (1 : Fin 2) * 64 + 1 * (z 1).val = (z 1).val; rw [e21]; omega
  have h3 : iblk m c 3 t (ix2 (0 : Fin 1) q) = m ((c : Thread nD τ).loc main_arg3) (ix1 q) := by
    show V m c main_v0 (((cfg0.win 3).blk t).view.emb (ix2 (0 : Fin 1) q)) = _
    rw [bias_row]
    refine shapeCast_apply _ _ _ (ix1 q) ?_
    rw [Shape.rowMajor_val_one, Shape.rowMajor_val_two]
    show q.val = (win0_3.index t (0 : Fin 2) * 1 + 1 * 0) * 64 + (win0_3.index t (1 : Fin 2) * 64 + 1 * q.val)
    rw [e30, e31]; omega
  exact block_is_rows (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) ⟨t.val * 32 + p.val, hb⟩ p q h0 h1 h2 h3

/-! ## The blocks cover the array -/

/-- An index of the result array lies in point t's block iff each coordinate lies in the block's range on its axis. -/
theorem mem_blk (t : Fin cfg0.N) (i : S2048x64.Idx) :
    i ∈ ((cfg0.win 4).blk t).view.set ↔ ∀ a : Fin 2, win0_4.index t a * S32x64.size a ≤ (i a).val
      ∧ (i a).val < win0_4.index t a * S32x64.size a + S32x64.size a := by
  show i ∈ ((View.whole main_v1).slice (win0_4.rect t)).set ↔ _
  rw [View.set_slice_whole, Rect.mem_set_unit]
  exact Iff.rfl

/-- Row r of the result lies in the block of point r / 32, which writes back. -/
theorem covered (i : S2048x64.Idx) :
    ∃ t : Fin cfg0.N, (cfg0.win 4).flush t = true ∧ i ∈ ((cfg0.win 4).blk t).view.set := by
  have hi0 : (i 0).val < 2048 := (i 0).isLt
  have hi1 : (i 1).val < 64 := (i 1).isLt
  have hN : cfg0.N = 64 := N_0
  have hlt : (i 0).val / 32 < cfg0.N := by rw [hN]; omega
  obtain ⟨-, -, -, -, -, -, -, -, e40, e41⟩ := idx_facts ⟨(i 0).val / 32, hlt⟩
  refine ⟨⟨(i 0).val / 32, hlt⟩, flush0_4 _, ?_⟩
  rw [mem_blk]
  intro a
  match a with
  | ⟨0, _⟩ =>
    show win0_4.index ⟨(i 0).val / 32, hlt⟩ (0 : Fin 2) * 32 ≤ (i 0).val
      ∧ (i 0).val < win0_4.index ⟨(i 0).val / 32, hlt⟩ (0 : Fin 2) * 32 + 32
    rw [e40]
    show (i 0).val / 32 * 32 ≤ (i 0).val ∧ (i 0).val < (i 0).val / 32 * 32 + 32
    omega
  | ⟨1, _⟩ =>
    show win0_4.index ⟨(i 0).val / 32, hlt⟩ (1 : Fin 2) * 64 ≤ (i 1).val
      ∧ (i 1).val < win0_4.index ⟨(i 0).val / 32, hlt⟩ (1 : Fin 2) * 64 + 64
    rw [e41]
    omega

/-! ## The array after the run, and the run -/

/-- After the run the result array is the specification's. -/
theorem final (c : Dev nD) : (dats m 0 c).arrAt 4 cfg0.N = result m c :=
  (dats m 0 c).arrAt_eq_of_cover 4 (result m c) (fun t _ => flushed_eq m c t) covered

/-- Every weakly fair execution of the kernel program terminates with the result array at the specification of the
    argument arrays, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.TopicScore.Whole

end
-- ==== Proof.lean ====
/-
  The kernel and its reference compute the same topic scores with pairwise mixing, as extended reals.

  Both programs take 2048 documents x (counts over 50000 words), 64 topics beta, a 64 × 64 interaction matrix theta and a
  bias mu, and return
      out[b, k] = (s[b, k] + mu[k]) + c · Σ_j s[b, j] · (theta[k, j] · (1 − [k = j])),    s[b, k] = Σ_v x[b, v] · beta[k, v],
  with c the same f32 word in both (Proof/Spec.lean). The reference computes this with two whole-array products on the
  host (Proof/RefValue.lean). The kernel cuts the documents into 64 blocks of 32 rows, computes the same expression per
  block with two matrix-unit products into zero accumulators (Proof/BlockValue.lean), and writes the blocks back to
  disjoint row ranges that together cover the result (Proof/ArrayValue.lean). Over the extended reals a matrix product
  into a zero accumulator and a host contraction are the same finite sum, the narrowing of an operand to a shorter float
  format is the identity, and the two ways the programs turn the diagonal bit into a number agree; the two programs apply
  the remaining additions and multiplications in the same order, so no algebraic law is needed and the result holds at
  every extended-real input, the precondition unused.

  The idealized kernel is the kernel's own text read over the extended reals, so the idealization claim has no conjunct.
  Each program terminates without fault and leaves its arguments unchanged: for the two kernel programs this is their
  generated run through the pipeline; for the reference it is its generated host run with the result dropped.
-/
import proofs.«155288_j790273982469_1_alg».proof.Defs
import proofs.«155288_j790273982469_1_alg».proof.Proof.Gen.Kernel
import proofs.«155288_j790273982469_1_alg».proof.Proof.Gen.Kernel.Skeleton
import proofs.«155288_j790273982469_1_alg».proof.Proof.Gen.Kernel.Launch
import proofs.«155288_j790273982469_1_alg».proof.Proof.Gen.Kernel.Points
import proofs.«155288_j790273982469_1_alg».proof.Proof.Gen.Kernel.Frame
import proofs.«155288_j790273982469_1_alg».proof.Proof.Gen.KernelIdeal
import proofs.«155288_j790273982469_1_alg».proof.Proof.Gen.KernelIdeal.Skeleton
import proofs.«155288_j790273982469_1_alg».proof.Proof.Gen.KernelIdeal.Launch
import proofs.«155288_j790273982469_1_alg».proof.Proof.Gen.KernelIdeal.Points
import proofs.«155288_j790273982469_1_alg».proof.Proof.Gen.KernelIdeal.Frame
import proofs.«155288_j790273982469_1_alg».proof.Proof.Gen.ReferenceIdeal
import proofs.«155288_j790273982469_1_alg».proof.Proof.Gen.Pre_finite_inputs
import proofs.«155288_j790273982469_1_alg».proof.Proof.Gen.KernelIdeal.Value
import proofs.«155288_j790273982469_1_alg».proof.Proof.Gen.ReferenceIdeal.Run
import proofs.«155288_j790273982469_1_alg».proof.Proof.Gen.ReferenceIdeal.Read
import proofs.«155288_j790273982469_1_alg».proof.Proof.RefValue
import proofs.«155288_j790273982469_1_alg».proof.Proof.ArrayValue
import Idealize.ShloMosaic.Adequacy
import Idealize.ShloMosaic.Init

noncomputable section

namespace Cert.Proof

open Idealize.ShloMosaic Idealize.SL.Sem

/-- The kernel as printed runs to the end without fault and leaves its four arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its host run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals: nothing to state. -/
theorem preserves : Cert.preserves_Kernel_KernelIdeal := trivial

/-- From memories that agree on the four arguments, both programs end with the specification's result array of those
    arguments: the kernel by its blocks covering the array, the reference by its host operations read at an index. -/
theorem algebraic : Cert.algebraic_KernelIdeal_ReferenceIdeal := by
  intro m ρ m' ρ' _ hagree
  refine ⟨fun c => Cert.TopicScore.Whole.result m c, Cert.TopicScore.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _ _ _ _).trans ((Cert.TopicScore.Ref.result_eq _ _ _ _).trans ?_)
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
